-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S2x8x128 : Shape := ⟨3, ![2, 8, 128]⟩
abbrev S8192x128 : Shape := ⟨2, ![8192, 128]⟩
abbrev S1x8x128 : Shape := ⟨3, ![1, 8, 128]⟩
abbrev S1x128 : Shape := ⟨2, ![1, 128]⟩
abbrev S128 : Shape := ⟨1, ![128]⟩
abbrev S1x1x128 : Shape := ⟨3, ![1, 1, 128]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S2x8x128, .f32⟩
  | .hbm, ⟨5, _⟩ => ⟨S1x1x128, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S1x1x128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8x128, .f32⟩
  | .local _ .vmem, ⟨5, _⟩ => ⟨S1x8x128, .f32⟩
  | .local _ .vmem, ⟨6, _⟩ => ⟨S1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x128_0_0_0 : S2x8x128.Slices ![0, 0, 0] S1x1x128
  shapeCasts_S1x1x128_S128 : S1x1x128.ShapeCasts S128
  reducesTo_S128_S_d0 : S128.ReducesTo [0] S_
  h_S_ : 0 < S_.numel
  slices_S2x8x128_S1x1x128_1_0_0 : S2x8x128.Slices ![1, 0, 0] S1x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S_, .f32⟩
  | .hbm, ⟨3, _⟩ => ⟨S16777216, .f32⟩
  | .hbm, ⟨4, _⟩ => ⟨S16777216, .i1⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S16777216, .i1⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What the kernel body leaves behind at a grid point, case by case, as values: the accumulator row after a core's
  first point (zero plus the block's column sums), after any later point (what it held plus the block's column sums),
  and, at a core's last point, the output block (the accumulator spread over the block's eight rows). Each is the
  payload of the one store that covers the buffer, its loads reading whole buffers.
-/
import proofs.«116129_j15668040696555_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

/-- A store at the origin of a rank-2 buffer. -/
theorem hz2 : (![0, 0] : Fin 2 → Nat) = fun _ => 0 := funext fun a => by fin_cases a <;> rfl
/-- A store at the origin of a rank-3 buffer. -/
theorem hz3 : (![0, 0, 0] : Fin 3 → Nat) = fun _ => 0 := funext fun a => by fin_cases a <;> rfl

/-- A point that is neither a core's first nor its last leaves in the accumulator the one store's payload: the
    accumulator it found plus the block's column sums. -/
theorem sout_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S1x128 .f32) (harg5 : arg5.IsWhole) (hc0 : ¬cond0_0 i) (hc1 : ¬cond0_1 i)
    (x0 x1 : Vec F S8192x128 .f32) (xs0 : Vec F S1x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread,
    View.ld_unit_zero (S := S8192x128) hz2, View.ld_unit_zero (S := S1x128) hz2]

/-- A core's first point stores the zero row, reads it back, and leaves zero plus the block's column sums. -/
theorem sout_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S1x128 .f32) (harg5 : arg5.IsWhole) (hc0 : cond0_0 i) (hc1 : ¬cond0_1 i)
    (x0 x1 : Vec F S8192x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread,
    View.ld_unit_zero (S := S8192x128) hz2, View.ld_unit_zero (S := S1x128) hz2]

/-- A core's last point updates the accumulator as every other point does, -/
theorem sout_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S1x128 .f32) (harg5 : arg5.IsWhole) (hc0 : ¬cond0_0 i) (hc1 : cond0_1 i)
    (x0 x1 : Vec F S8192x128 .f32) (xs0 : Vec F S1x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S8192x128) hz2, View.ld_unit_zero (S := S1x128) hz2]

/-- and writes the updated accumulator, spread over the eight rows, into the output block. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x8x128 .f32) (harg4 : arg4.IsWhole) (arg5 : Memref sig .tc .vmem S1x128 .f32) (harg5 : arg5.IsWhole) (hc0 : ¬cond0_0 i) (hc1 : cond0_1 i)
    (x0 x1 : Vec F S8192x128 .f32) (xs0 : Vec F S1x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread,
    View.ld_unit_zero (S := S8192x128) hz2, View.ld_unit_zero (S := S1x128) hz2]

end Cert.KernelIdeal.Val
end
-- ==== Proof.Spec.lean ====
/-
  The quantity both programs compute, as one formula over the extended reals.

  For predictions `p` and targets `t` (each 16777216 numbers) the weighted squared error of element `n` is
  `(pₙ - tₙ)² · wₙ` with `wₙ = 2` where `pₙ < 20` or `pₙ > 80` and `wₙ = 1` elsewhere; the result is the mean of these,
  the sum divided by 2²⁴. The kernel sees the arrays as 131072 rows of 128 lanes, cut into 16 blocks of 8192 rows:
  core `c` (of two) adds, lane by lane, the column sums of blocks `8c … 8c+7`; the lanes of each core's partial sums
  are then added, the two totals added, and the sum multiplied by 2⁻²⁴.
-/
import Idealize.ShloMosaic.PureOps.Ideal
import Idealize.ShloMosaic.Lib.ValueIdx

noncomputable section

namespace Cert.MeanWeightedSq

open Idealize.ShloMosaic Idealize.ShloMosaic.ValueIdx

/-- The arrays as the programs receive them, and as the kernel views them. -/
abbrev Flat : Shape := ⟨1, ![16777216]⟩
abbrev Rows : Shape := ⟨2, ![131072, 128]⟩

/-- One element's weighted squared error `(p - t)² · w`, `w = 2` outside `[20, 80]` and `1` inside, spelt with the
    operations and the literal words both programs use. -/
def term (p t : Ideal .f32) : Ideal .f32 :=
  FloatOps.mulf (FloatOps.mulf (FloatOps.subf p t) (FloatOps.subf p t))
    (Scalar.select
      (IntOp.ori (FloatOps.cmpf .olt p (FloatOps.ofBits .f32 0x41A00000#32))
        (FloatOps.cmpf .ogt p (FloatOps.ofBits .f32 0x42A00000#32)))
      (FloatOps.ofBits .f32 0x40000000#32) (FloatOps.ofBits .f32 0x3F800000#32))

/-- Row `k` of the 131072 (taken modulo the row count, so that it is defined for every natural number). -/
def rowAt (k : ℕ) : Fin 131072 := ⟨k % 131072, Nat.mod_lt _ (by norm_num)⟩

/-- Lane `l` of the column sums of block `n`: rows `8192 n … 8192 n + 8191`. -/
def blockSum (P T : Rows.Idx → EReal) (n : ℕ) (l : Fin 128) : EReal :=
  ∑ r : Fin 8192, term (P (ix2 (rowAt (n * 8192 + r.val)) l)) (T (ix2 (rowAt (n * 8192 + r.val)) l))

/-- Lane `l` of what a core holds after `k` blocks of its eight: blocks `8c … 8c + k - 1` added. -/
def partialSum (P T : Rows.Idx → EReal) (c k : ℕ) (l : Fin 128) : EReal :=
  ∑ i ∈ Finset.range k, blockSum P T (c * 8 + i) l

/-- The kernel's result: each core's lanes added (from zero), the two totals added, times the word for 2⁻²⁴. -/
def kernelResult (P T : Rows.Idx → EReal) : EReal :=
  ((0 + ∑ l : Fin 128, partialSum P T 0 8 l) + (0 + ∑ l : Fin 128, partialSum P T 1 8 l))
    * Ideal.ofBits .f32 0x33800000#32

/-- The reference's result: all elements added (from zero), divided by the word for 2²⁴. -/
def referenceResult (P T : Flat.Idx → EReal) : EReal :=
  Ideal.div (0 + ∑ j : Flat.Idx, term (P j) (T j)) (Ideal.ofBits .f32 0x4B800000#32)

end Cert.MeanWeightedSq

end
-- ==== Proof.Payloads.lean ====
/-
  The three values the kernel body stores, read at an index over the extended reals: the zero row is zero; the updated
  accumulator at lane `l` is what the accumulator held there plus the sum, over the block's 8192 rows, of the weighted
  squared errors in that lane; the output block's entry at (row `s`, lane `l`) is the accumulator's lane `l`, for each of
  the eight rows.
-/
import proofs.«116129_j15668040696555_2_alg».proof.Proof.Gen.KernelIdeal.Skeleton
import proofs.«116129_j15668040696555_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Val

open Cert.KernelIdeal Cert.KernelIdeal.Gen Cert.MeanWeightedSq

variable {F : FTy → Type} [FloatOps F]

/-- The row a core's first point stores is zero in every lane. -/
theorem pay1_apply (y : S1x128.Idx) : k0_pay1 (F := Ideal) y = 0 := by
  unfold k0_pay1
  simp only [shapeCast_self]
  exact Ideal.ofBits_zero_f32

/-- Inserting row `r` into the lane index `l` of the column sums gives entry `(r, l)` of the block. -/
theorem lift_eq (l : Fin 128) (r : Fin 8192) :
    reduces_S8192x128_S128.lift (ix1 l) r = (ix2 r l : S8192x128.Idx) :=
  funext fun a => match a with
    | ⟨0, _⟩ => rfl
    | ⟨1, _⟩ => rfl

/-- The updated accumulator at lane `l`: what it held plus the lane's sum of weighted squared errors over the block's rows. -/
theorem pay2_apply (x0 x1 : FVec Ideal S8192x128 .f32) (xs : FVec Ideal S1x128 .f32) (u : Fin 1) (l : Fin 128) :
    k0_pay2 x0 x1 xs (ix2 u l) = xs (ix2 u l) + ∑ r : Fin 8192, term (x0 (ix2 r l)) (x1 (ix2 r l)) := by
  unfold k0_pay2
  simp only [shapeCast_self]
  refine congrArg (xs (ix2 u l) + ·) ?_
  refine (shapeCast_a_1a_apply _ _ u l).trans ?_
  refine (Ideal.multiReduction_add_single _ 0x00000000#32 reduces_S8192x128_S128 (.inl rfl) rfl (ix1 l)).trans ?_
  refine Finset.sum_congr rfl fun r _ => ?_
  exact congrArg (fun j : S8192x128.Idx => term (x0 j) (x1 j)) (lift_eq l r)

/-- The output block at (row `s`, lane `l`) is the accumulator's lane `l`. -/
theorem pay3_apply (v : FVec F S1x128 .f32) (u : Fin 1) (s : Fin 8) (l : Fin 128) :
    k0_pay3 v (ix3 u s l) = v (ix2 (0 : Fin 1) l) := by
  unfold k0_pay3
  simp only [shapeCast_self]
  refine (broadcastTo_apply _ _ (ix3 u s l) (ix3 (0 : Fin 1) (0 : Fin 1) l) fun a => ?_).trans ?_
  · match a with
    | ⟨0, _⟩ => rfl
    | ⟨1, _⟩ => rfl
    | ⟨2, _⟩ => show l.val = if (128 : ℕ) = 1 then 0 else l.val; simp
  · exact shapeCast_ab_1ab_apply v _ 0 0 l

end Cert.KernelIdeal.Val
end
-- ==== Proof.Blocks.lean ====
/-
  Where the kernel's inputs come from. Before the launch the two argument arrays are re-laid as 131072 rows of 128
  lanes; grid point `t` (of 16, core `t / 8`, step `t % 8`) is handed rows `8192 t … 8192 t + 8191` of each, and core
  `c`'s output block is block `c` of the [2, 8, 128] result. The index maps are decided once over the sixteen points.
-/
import proofs.«116129_j15668040696555_2_alg».proof.Proof.Gen.KernelIdeal.Frame
import proofs.«116129_j15668040696555_2_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.MeanWeightedSq

variable {F : FTy → Type} [FloatOps F]
variable (m : (ℓ : Loc nD τ sig) → Buf (Elt F) ℓ)

/-- The printed index maps at every grid point: both inputs' block row is the point's number, the output's block is the
    point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Entry `(r, l)` of the first input's block at point `t` is entry `(8192 t + r, l)` of the re-laid first argument. -/
theorem iblk0_apply (c : Dev nD) (t : Fin cfg0.N) (r : Fin 8192) (l : Fin 128) :
    (iblk m c 0 t : Vec F S8192x128 .f32) (ix2 r l) = V m c main_v0 (ix2 (rowAt (t.val * 8192 + r.val)) l) := by
  have hN : cfg0.N = 16 := N_0
  have ht := t.isLt
  obtain ⟨e0, e1, -⟩ := idx_facts t
  unfold iblk
  rw [View.read_apply]
  show V m c main_v0 _ = V m c main_v0 _
  congr 1
  funext a
  apply Fin.ext
  match a with
  | ⟨0, _⟩ =>
    show win0_0.index t (0 : Fin 2) * 8192 + 1 * r.val = (t.val * 8192 + r.val) % 131072
    rw [e0]; omega
  | ⟨1, _⟩ =>
    show win0_0.index t (1 : Fin 2) * 128 + 1 * l.val = l.val
    rw [e1]; omega

/-- The same for the second input and the re-laid second argument. -/
theorem iblk1_apply (c : Dev nD) (t : Fin cfg0.N) (r : Fin 8192) (l : Fin 128) :
    (iblk m c 1 t : Vec F S8192x128 .f32) (ix2 r l) = V m c main_v1 (ix2 (rowAt (t.val * 8192 + r.val)) l) := by
  have hN : cfg0.N = 16 := N_0
  have ht := t.isLt
  obtain ⟨-, -, e0, e1, -⟩ := idx_facts t
  unfold iblk
  rw [View.read_apply]
  show V m c main_v1 _ = V m c main_v1 _
  congr 1
  funext a
  apply Fin.ext
  match a with
  | ⟨0, _⟩ =>
    show win0_1.index t (0 : Fin 2) * 8192 + 1 * r.val = (t.val * 8192 + r.val) % 131072
    rw [e0]; omega
  | ⟨1, _⟩ =>
    show win0_1.index t (1 : Fin 2) * 128 + 1 * l.val = l.val
    rw [e1]; omega

/-- When the region is entered the first input array is the first argument re-laid in rows of 128, -/
theorem V_main_v0 (c : Dev nD) :
    (V m c main_v0 : S131072x128.Idx → Elt F .f32)
      = shapeCast S131072x128 (m ((c : Thread nD τ).loc main_arg0)) shapeCasts_S16777216_S131072x128 := by
  show StableHlo.after hostOps0 (fun b => m (c, b)) (Proc.devRef .tc main_v0) = _
  after_results
  rfl

/-- and the second the second argument re-laid the same way. -/
theorem V_main_v1 (c : Dev nD) :
    (V m c main_v1 : S131072x128.Idx → Elt F .f32)
      = shapeCast S131072x128 (m ((c : Thread nD τ).loc main_arg1)) shapeCasts_S16777216_S131072x128 := by
  show StableHlo.after hostOps0 (fun b => m (c, b)) (Proc.devRef .tc main_v1) = _
  after_results
  rfl

end Cert.KernelIdeal.Val
end
-- ==== Proof.Accum.lean ====
/-
  What a core's accumulator row holds after each grid point: after step `k` of core `c` (point `8c + k`), lane `l`
  holds the column sums of blocks `8c … 8c + k` added up — by induction on the point: the first step of a core starts
  from zero, every later step adds its block's column sums to what the step before left.
-/
import proofs.«116129_j15668040696555_2_alg».proof.Proof.Pieces
import proofs.«116129_j15668040696555_2_alg».proof.Proof.Payloads
import proofs.«116129_j15668040696555_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.MeanWeightedSq

variable (m : (ℓ : Loc nD τ sig) → Buf (Elt Ideal) ℓ)

/-- The two input arrays as the region finds them: 131072 rows of 128 lanes. -/
abbrev P2 (c : Dev nD) : Rows.Idx → EReal := V m c main_v0
abbrev T2 (c : Dev nD) : Rows.Idx → EReal := V m c main_v1

/-- The column sums of the blocks handed to point `t` are those of block `t` of the two arrays. -/
theorem blockSum_eq (c : Dev nD) (t : Fin cfg0.N) (l : Fin 128) :
    ∑ r : Fin 8192, term ((iblk m c 0 t : Vec Ideal S8192x128 .f32) (ix2 r l)) ((iblk m c 1 t : Vec Ideal S8192x128 .f32) (ix2 r l))
      = blockSum (P2 m c) (T2 m c) t.val l := by
  unfold blockSum
  refine Finset.sum_congr rfl fun r _ => ?_
  rw [iblk0_apply m c t r l, iblk1_apply m c t r l]

/-- THE INVARIANT: after point `n` the accumulator's lane `l` is the sum of the column sums of the `n % 8 + 1` blocks
    core `n / 8` has seen. -/
theorem acc_eq (c : Dev nD) : ∀ (n : ℕ) (hn : n < cfg0.N) (u : Fin 1) (l : Fin 128),
    (outsAt0 m c n hn).2 (ix2 u l) = partialSum (P2 m c) (T2 m c) (n / 8) (n % 8 + 1) l := by
  have hN : cfg0.N = 16 := N_0
  intro n
  induction n with
  | zero =>
    intro hn u l
    have h0 : (⟨0, hn⟩ : Fin cfg0.N).val % 8 = 0 := rfl
    have h1 : ¬(⟨0, hn⟩ : Fin cfg0.N).val % 8 = 7 := by dsimp only; omega
    rw [outsAt0_A m c ⟨0, hn⟩ h0 h1]
    dsimp only
    refine (congrFun (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩)) (ix2 u l)).trans ?_
    refine (pay2_apply (iblk m c 0 ⟨0, hn⟩) (iblk m c 1 ⟨0, hn⟩) (k0_pay1 (F := Ideal)) u l).trans ?_
    rw [pay1_apply, zero_add, blockSum_eq m c ⟨0, hn⟩ l]
    unfold partialSum
    simp
  | succ n ih =>
    intro hn u l
    have hn' : n < cfg0.N := Nat.lt_of_succ_lt hn
    by_cases h0 : (⟨n + 1, hn⟩ : Fin cfg0.N).val % 8 = 0
    · -- a core's first point: the accumulator restarts from zero
      have h1 : ¬(⟨n + 1, hn⟩ : Fin cfg0.N).val % 8 = 7 := by dsimp only at h0 ⊢; omega
      rw [outsAt0_A m c ⟨n + 1, hn⟩ h0 h1]
      dsimp only
      refine (congrFun (sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)) (ix2 u l)).trans ?_
      refine (pay2_apply (iblk m c 0 ⟨n + 1, hn⟩) (iblk m c 1 ⟨n + 1, hn⟩) (k0_pay1 (F := Ideal)) u l).trans ?_
      rw [pay1_apply, zero_add, blockSum_eq m c ⟨n + 1, hn⟩ l]
      dsimp only at h0
      have e1 : (n + 1) % 8 + 1 = 1 := by omega
      have e2 : (n + 1) / 8 * 8 + 0 = n + 1 := by omega
      unfold partialSum
      rw [e1, Finset.sum_range_one, e2]
    · by_cases h1 : (⟨n + 1, hn⟩ : Fin cfg0.N).val % 8 = 7
      · -- a core's last point
        rw [outsAt0_C m c ⟨n + 1, hn⟩ h0 h1]
        dsimp only
        refine (congrFun (sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n hn').2) (ix2 u l)).trans ?_
        refine (pay2_apply (iblk m c 0 ⟨n + 1, hn⟩) (iblk m c 1 ⟨n + 1, hn⟩) (outsAt0 m c n hn').2 u l).trans ?_
        rw [ih hn' u l, blockSum_eq m c ⟨n + 1, hn⟩ l]
        dsimp only at h0 h1
        have e1 : (n + 1) / 8 = n / 8 := by omega
        have e2 : (n + 1) % 8 + 1 = (n % 8 + 1) + 1 := by omega
        have e3 : n / 8 * 8 + (n % 8 + 1) = n + 1 := by omega
        unfold partialSum
        rw [e1, e2, Finset.sum_range_succ _ (n % 8 + 1), e3]
      · -- a point in the middle of a core's eight
        rw [outsAt0_B m c ⟨n + 1, hn⟩ h0 h1]
        dsimp only
        refine (congrFun (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n hn').2) (ix2 u l)).trans ?_
        refine (pay2_apply (iblk m c 0 ⟨n + 1, hn⟩) (iblk m c 1 ⟨n + 1, hn⟩) (outsAt0 m c n hn').2 u l).trans ?_
        rw [ih hn' u l, blockSum_eq m c ⟨n + 1, hn⟩ l]
        dsimp only at h0 h1
        have e1 : (n + 1) / 8 = n / 8 := by omega
        have e2 : (n + 1) % 8 + 1 = (n % 8 + 1) + 1 := by omega
        have e3 : n / 8 * 8 + (n % 8 + 1) = n + 1 := by omega
        unfold partialSum
        rw [e1, e2, Finset.sum_range_succ _ (n % 8 + 1), e3]

end Cert.KernelIdeal.Val
end
-- ==== Proof.OutArray.lean ====
/-
  The kernel's result array. A core's output block is written back once, after the core's last point, and holds the
  accumulator spread over its eight rows: so entry `(c, s, l)` of the [2, 8, 128] array ends at the sum of the column
  sums of core `c`'s eight blocks in lane `l`, whatever the row `s`. The two write-backs (points 7 and 15) cover the array.
-/
import proofs.«116129_j15668040696555_2_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.MeanWeightedSq

variable (m : (ℓ : Loc nD τ sig) → Buf (Elt Ideal) ℓ)

/-- The result array: entry `(c, s, l)` is core `c`'s lane `l` after its eight blocks. -/
def outArr (c : Dev nD) : S2x8x128.Idx → EReal :=
  fun j => partialSum (P2 m c) (T2 m c) (j 0).val 8 (j 2)

/-- Entry `(u, s, l)` of the output block of point `t` sits at `(t / 8, s, l)` of the array. -/
theorem emb_out (t : Fin cfg0.N) (u : Fin 1) (s : Fin 8) (l : Fin 128) (hc : t.val / 8 < 2) :
    ((cfg0.win 2).blk t).view.emb (ix3 u s l) = (ix3 ⟨t.val / 8, hc⟩ s l : S2x8x128.Idx) := by
  obtain ⟨-, -, -, -, e0, e1, e2⟩ := idx_facts t
  funext a
  apply Fin.ext
  match a with
  | ⟨0, _⟩ =>
    show win0_2.index t (0 : Fin 3) * 1 + 1 * u.val = t.val / 8
    rw [e0]; omega
  | ⟨1, _⟩ =>
    show win0_2.index t (1 : Fin 3) * 8 + 1 * s.val = s.val
    rw [e1]; omega
  | ⟨2, _⟩ =>
    show win0_2.index t (2 : Fin 3) * 128 + 1 * l.val = l.val
    rw [e2]; omega

/-- What a core's last point leaves in the output block: the accumulator after that point, in every row. -/
theorem out_last (c : Dev nD) (t : Fin cfg0.N) (h7 : t.val % 8 = 7) (u : Fin 1) (s : Fin 8) (l : Fin 128) :
    (outsAt0 m c t.val t.isLt).1 (ix3 u s l) = partialSum (P2 m c) (T2 m c) (t.val / 8) 8 l := by
  have h0 : ¬t.val % 8 = 0 := by omega
  have ha := acc_eq m c t.val t.isLt 0 l
  rw [outsAt0_C m c t h0 h7] at ha ⊢
  dsimp only at ha ⊢
  refine (congrFun (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2) (ix3 u s l)).trans ?_
  refine (pay3_apply _ u s l).trans ?_
  refine (congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2) (ix2 (0 : Fin 1) l)).symm.trans ?_
  rw [ha, h7]

/-- WHAT A WRITE-BACK WRITES is its block of the result array. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 16 := N_0
  have ht := t.isLt
  have h7 : t.val % 8 = 7 := (flush0_2 t).mp hf
  have hc : t.val / 8 < 2 := by omega
  show (cfg0.win 2).cut (grid0.coords t) ((dats m 0 c).after 2 t) = _
  rw [after0_2]
  funext y
  obtain ⟨u, s, l, rfl⟩ : ∃ (u : Fin 1) (s : Fin 8) (l : Fin 128), y = ix3 u s l := ⟨y 0, y 1, y 2, eq_ix3 y⟩
  show (outsAt0 m c t.val t.isLt).1 (ix3 u s l) = outArr m c (((cfg0.win 2).blk t).view.emb (ix3 u s l))
  rw [emb_out t u s l hc, out_last m c t h7 u s l]
  rfl

/-- An index of the array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- THE ARRAY after the run: core `c`'s last point covers block `c`. -/
theorem final_out (c : Dev nD) : (dats m 0 c).arrAt 2 cfg0.N = outArr m c := by
  have hN : cfg0.N = 16 := N_0
  refine (dats m 0 c).arrAt_eq_of_cover 2 (outArr m c) (flushed_eq m c) fun i => ?_
  have hi0 : (i 0).val < 2 := (i 0).isLt
  have hi1 : (i 1).val < 8 := (i 1).isLt
  have hi2 : (i 2).val < 128 := (i 2).isLt
  let t : Fin cfg0.N := ⟨(i 0).val * 8 + 7, by omega⟩
  have htv : t.val = (i 0).val * 8 + 7 := rfl
  obtain ⟨-, -, -, -, e0, e1, e2⟩ := idx_facts t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 128 ≤ (i 2).val ∧ (i 2).val < win0_2.index t (2 : Fin 3) * 128 + 128
    rw [e2]; omega

end Cert.KernelIdeal.Val
end
-- ==== Proof.LibSumBlocks.lean ====
/-
  Finite sums over array index sets, re-indexed. Three general facts, for any commutative additive monoid (so also for
  the extended reals, where no finiteness condition is needed):
    * a sum over `n = a * b` positions is the sum over `a` blocks of the sums over each block's `b` positions
      (`sum_fin_blocks`; stated with the hypothesis `n = a * b` so that a large literal `n` is never factored by evaluation);
    * a sum over the index set of a rank-1 shape `[n]` is the sum over its one coordinate (`sum_idx1`, beside the
      library's `sum_idx2` for rank 2);
    * a reshape only renames indices, so a sum over the reshaped array's index set is the sum over the original's
      (`sum_reshape`, and `sum_shapeCast` for a function of the array's entries).
-/
import Idealize.ShloMosaic.Lib.Pipeline.Value
import Idealize.ShloMosaic.Lib.ValueIdx
import Mathlib.Algebra.BigOperators.Fin

noncomputable section

open scoped BigOperators

namespace Cert.LibSumBlocks

open Idealize.ShloMosaic Idealize.ShloMosaic.ValueIdx

/-- Position `q` of block `p`, of `a` blocks of `b`, is below `a * b`. -/
theorem mul_add_lt {a b : ℕ} (p : Fin a) (q : Fin b) : p.val * b + q.val < a * b :=
  calc p.val * b + q.val < p.val * b + b := Nat.add_lt_add_left q.isLt _
    _ = (p.val + 1) * b := by ring
    _ ≤ a * b := Nat.mul_le_mul_right b p.isLt

/-- A sum over `n = a * b` indices is the sum over the `a` blocks of the sums over each block's `b` positions. -/
theorem sum_fin_blocks {M : Type*} [AddCommMonoid M] {n a b : ℕ} (hn : n = a * b) (f : Fin n → M) :
    ∑ k : Fin n, f k = ∑ p : Fin a, ∑ q : Fin b, f ⟨p.val * b + q.val, hn ▸ mul_add_lt p q⟩ := by
  subst hn
  rw [← finProdFinEquiv.sum_comp, Fintype.sum_prod_type]
  refine Finset.sum_congr rfl fun p _ => Finset.sum_congr rfl fun q _ => ?_
  congr 1
  apply Fin.ext
  show q.val + b * p.val = p.val * b + q.val
  rw [Nat.mul_comm, Nat.add_comm]

/-- A rank-1 index set is its one coordinate's range … -/
def idxEquiv1 {n : Nat} : (⟨1, ![n]⟩ : Shape).Idx ≃ Fin n where
  toFun i := i 0
  invFun l := ix1 l
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ l : Fin n, f (ix1 l) :=
  (Equiv.sum_comp (idxEquiv1 (n := n)).symm f).symm

/-- A reshape renames indices one to one: summing a function of the original index over the reshaped index set is
    summing it over the original one. -/
theorem sum_reshape {M : Type*} [AddCommMonoid M] {s t : Shape} (h : s.ShapeCasts t) (f : s.Idx → M) :
    ∑ j : t.Idx, f (Shape.reshapeEquiv h j) = ∑ i : s.Idx, f i :=
  Equiv.sum_comp (Shape.reshapeEquiv h) f

/-- The total of a function of the entries of a reshaped array is its total over the original array. -/
theorem sum_shapeCast {M : Type*} [AddCommMonoid M] {s t : Shape} {α : Type} (x : s.Idx → α) (h : s.ShapeCasts t)
    (g : α → M) : ∑ j : t.Idx, g (shapeCast t x h j) = ∑ i : s.Idx, g (x i) := by
  unfold shapeCast
  exact sum_reshape h fun i => g (x i)

end Cert.LibSumBlocks

end
-- ==== Proof.TailValue.lean ====
/-
  The host operations after the kernel, as one formula.

  The kernel leaves an array of shape (2, 8, 128): block `c` belongs to core `c`, and its row 0 holds that core's 128
  lane sums. The program's tail takes row 0 of each block, adds its 128 lanes (from zero), adds the two totals, and
  multiplies by the word for 2⁻²⁴. At the extended reals every step reads at an index: a slice shifts the index by
  its offsets, a reshape keeps the row-major position, and the host's sum into a rank-0 result is the initial value
  plus the sum over every index of its operand.
-/
import proofs.«116129_j15668040696555_2_alg».proof.Proof.Gen.KernelIdeal.Launch
import proofs.«116129_j15668040696555_2_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx Cert.LibSumBlocks

variable {F : FTy → Type} [FloatOps F]

/-- The tail of the program as a function of the kernel's (2, 8, 128) result `A`: the 128 lanes of row 0 of block 0
    added from zero, the 128 lanes of row 0 of block 1 added from zero, the two totals added, and the sum multiplied
    by the word for 2⁻²⁴. -/
def tail (A : (⟨S2x8x128, .f32⟩ : BufTy).Contents (Elt F)) : (⟨S_, .f32⟩ : BufTy).Contents (Elt F) :=
  mulf
    (addf
      (Host.reduceAdd (shapeCast S128 (extractStridedSlice S1x1x128 ![0, 0, 0] A slices_S2x8x128_S1x1x128_0_0_0)
        shapeCasts_S1x1x128_S128) (constant S_ .f32 0x00000000#32) reducesTo_S128_S_d0 h_S_)
      (Host.reduceAdd (shapeCast S128 (extractStridedSlice S1x1x128 ![1, 0, 0] A slices_S2x8x128_S1x1x128_1_0_0)
        shapeCasts_S1x1x128_S128) (constant S_ .f32 0x00000000#32) reducesTo_S128_S_d0 h_S_))
    (constant S_ .f32 0x33800000#32)

/-- Row 0 of block `c`, viewed as 128 lanes, reads at lane `l` the array at `(c, 0, l)`. -/
theorem lane_apply (A : S2x8x128.Idx → EReal) (c : Fin 2) (h : S2x8x128.Slices ![c.val, 0, 0] S1x1x128)
    (l : Fin 128) :
    shapeCast S128 (extractStridedSlice S1x1x128 ![c.val, 0, 0] A h) shapeCasts_S1x1x128_S128 (ix1 l)
      = A (ix3 c (0 : Fin 8) l) := by
  refine (shapeCast_apply _ shapeCasts_S1x1x128_S128 (ix1 l) (ix3 (0 : Fin 1) (0 : Fin 1) l) ?_).trans ?_
  · rw [Shape.rowMajor_val_three, Shape.rowMajor_val_one]
    show (0 * 1 + 0) * 128 + l.val = l.val
    omega
  · refine extractStridedSlice_apply _ A h _ (ix3 c (0 : Fin 8) l) fun a => ?_
    match a with
    | ⟨0, _⟩ => exact (Nat.add_zero _).symm
    | ⟨1, _⟩ => exact (Nat.zero_add _).symm
    | ⟨2, _⟩ => exact (Nat.zero_add _).symm

/-- The host's sum of the 128 lanes of row 0 of block `c`, from the zero word, is `0 +` the sum of the array over the
    lanes at `(c, 0, ·)`. -/
theorem laneSum_apply (A : S2x8x128.Idx → EReal) (c : Fin 2) (h : S2x8x128.Slices ![c.val, 0, 0] S1x1x128)
    (i : S_.Idx) :
    Host.reduceAdd (F := Ideal) (shapeCast S128 (extractStridedSlice S1x1x128 ![c.val, 0, 0] A h) shapeCasts_S1x1x128_S128)
        (constant S_ .f32 0x00000000#32) reducesTo_S128_S_d0 h_S_ i
      = 0 + ∑ l : Fin 128, A (ix3 c (0 : Fin 8) l) := by
  simp only [Host.reduceAdd, Ideal.hostReduceAdd_def]
  refine (Ideal.hostReduceAdd_total reducesTo_S128_S_d0 (fun b => b.elim0) _ _ i).trans ?_
  rw [constant_apply, Ideal.ofBits_zero_f32, sum_idx1]
  exact congrArg (0 + ·) (Finset.sum_congr rfl fun l _ => lane_apply A c h l)

/-- The tail at the extended reals, at its one index: the two lane totals (each from zero) added, times the word for
    2⁻²⁴. -/
theorem tail_apply (A : S2x8x128.Idx → EReal) (i : S_.Idx) :
    tail (F := Ideal) A i
      = ((0 + ∑ l : Fin 128, A (ix3 (0 : Fin 2) (0 : Fin 8) l)) + (0 + ∑ l : Fin 128, A (ix3 (1 : Fin 2) (0 : Fin 8) l)))
        * Ideal.ofBits .f32 0x33800000#32 := by
  unfold tail
  rw [mulf_apply, addf_apply, constant_apply]
  exact congrArg₂ (fun x y => (x + y) * Ideal.ofBits .f32 0x33800000#32)
    (laneSum_apply A (0 : Fin 2) slices_S2x8x128_S1x1x128_0_0_0 i)
    (laneSum_apply A (1 : Fin 2) slices_S2x8x128_S1x1x128_1_0_0 i)

end Cert.KernelIdeal.Val

end
-- ==== Proof.KernelRun.lean ====
/-
  The kernel program's run, read: after the region the host adds the 128 lanes of row 0 of each core's block, adds the
  two totals and multiplies by the word for 2⁻²⁴; with the result array in closed form this is the kernel's result of the
  specification, evaluated at the two argument arrays re-laid in rows of 128. The arguments end unchanged.
-/
import proofs.«116129_j15668040696555_2_alg».proof.Proof.OutArray
import proofs.«116129_j15668040696555_2_alg».proof.Proof.TailValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.MeanWeightedSq

variable (m : (ℓ : Loc nD τ sig) → Buf (Elt Ideal) ℓ) (ρ : Dev nD → PrngReg)

/-- The program's result buffer after the host operations that follow the region: those operations applied to the
    region's result array. -/
theorem tail_result (c : Dev nD) :
    Pipeline.afterTail₀ cfgs (dats m) 0 (V0 m) [hostOps1] c main_v10
      = tail (F := Ideal) ((dats m 0 c).arrAt 2 cfg0.N) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [e]
  rfl

/-- So the program's result is the kernel's result of the specification at the two arrays the region finds. -/
theorem result_eq (c : Dev nD) :
    Pipeline.afterTail₀ cfgs (dats m) 0 (V0 m) [hostOps1] c main_v10
      = fun _ => kernelResult (P2 m c) (T2 m c) := by
  rw [tail_result, final_out]
  funext i
  rw [tail_apply]
  rfl

/-- THE RUN, READ: every weakly fair execution of the kernel program terminates with its result at the kernel's result of
    the specification and the two arguments unchanged. -/
theorem run : θ_run defs (onTc (τ := τ) (main (F := Ideal))) ⟨m, fun _ => 0, ρ⟩ fun r => ∀ c : Dev nD,
      r.2.mem ((c.tc : Thread nD τ).loc main_v10) = (fun _ => kernelResult (P2 m c) (T2 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Val
end
-- ==== Proof.RefIsSpec.lean ====
/-
  The reference program's result is the mean of the weighted squared errors: its last value, read one operation at a
  time down to the arguments, is the sum of the terms (from zero) divided by the word for 2²⁴.
-/
import proofs.«116129_j15668040696555_2_alg».proof.Proof.Spec
import proofs.«116129_j15668040696555_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- One element of the weighted squared errors the reference forms is the specification's term. -/
theorem val_main_v8_term (P T : (⟨S16777216, .f32⟩ : BufTy).Contents (Elt Ideal)) (j : S16777216.Idx) :
    val_main_v8 (F := Ideal) P T j = Cert.MeanWeightedSq.term (P j) (T j) := by
  rw [val_main_v8_apply, val_main_v7_apply, val_main_v6_apply, val_main_v5_apply, val_main_v4_apply,
    val_main_v1_apply, val_main_v3_apply, val_main_v0_apply, val_main_v2_apply, val_main_call0_v0_apply,
    val_main_call0_v1_apply, val_main_cst_apply, val_main_cst_0_apply, val_main_cst_1_apply, val_main_cst_2_apply]
  rfl

/-- The reference's result, at its one index, is the specification's mean. -/
theorem val_main_v10_eq_spec (P T : (⟨S16777216, .f32⟩ : BufTy).Contents (Elt Ideal)) :
    val_main_v10 (F := Ideal) P T = fun _ => Cert.MeanWeightedSq.referenceResult P T := by
  funext i
  rw [val_main_v10_apply, val_main_v9_apply, val_main_cst_3_apply, val_main_cst_4_apply]
  simp only [val_main_v8_term, Ideal.hostDivf_def, Ideal.ofBits_def, Ideal.ofBits_zero_f32]
  unfold Cert.MeanWeightedSq.referenceResult
  rfl

end Cert.ReferenceIdeal.RefValue

end
-- ==== Proof.Algebra.lean ====
/-
  The kernel's blocked sum is the reference's mean.

  The kernel adds the weighted squared errors lane by lane over blocks of 8192 rows, eight blocks to a core, then adds
  each core's 128 lanes and the two totals, and multiplies by 2⁻²⁴; the reference adds all 16777216 of them and divides
  by 2²⁴. Over the extended reals addition is commutative and associative, so both sums are the total over the
  131072 × 128 index set (the reshape only renames indices), and division by the real 2²⁴ is multiplication by 2⁻²⁴.
-/
import proofs.«116129_j15668040696555_2_alg».proof.Proof.Spec
import proofs.«116129_j15668040696555_2_alg».proof.Proof.LibSumBlocks
import Idealize.ShloMosaic.Lib.Pipeline.Value
import Idealize.ShloMosaic.PureOps.Ideal.Laws
import Mathlib.Algebra.BigOperators.Fin
import Mathlib.Algebra.BigOperators.Intervals

noncomputable section

open scoped BigOperators

namespace Cert.MeanWeightedSq

open Idealize.ShloMosaic Idealize.ShloMosaic.ValueIdx Cert.LibSumBlocks

/-! ## The two literal words -/

/-- The word `0x4B800000` denotes 2²⁴. -/
theorem ofBits_two_pow_24 : Ideal.ofBits .f32 0x4B800000#32 = ((16777216 : ℝ) : EReal) := by
  simp [Ideal.ofBits, Ideal.ieee, -EReal.coe_mul]; norm_num

/-- The word `0x33800000` denotes 2⁻²⁴. -/
theorem ofBits_two_pow_neg_24 : Ideal.ofBits .f32 0x33800000#32 = ((1 / 16777216 : ℝ) : EReal) := by
  simp [Ideal.ofBits, Ideal.ieee, -EReal.coe_mul]; norm_num

/-! ## The kernel's blocked sum is the total over the rows and lanes -/

/-- A row number below the row count is its own row. -/
theorem rowAt_of_lt {k : ℕ} (hk : k < 131072) : rowAt k = ⟨k, hk⟩ :=
  Fin.ext (Nat.mod_eq_of_lt hk)

/-- Lane `l` of the sixteen blocks' column sums is lane `l`'s sum over all the rows. -/
theorem sum_blockSum (P T : Rows.Idx → EReal) (l : Fin 128) :
    ∑ n ∈ Finset.range 16, blockSum P T n l = ∑ k : Fin 131072, term (P (ix2 k l)) (T (ix2 k l)) := by
  rw [sum_fin_blocks (a := 16) (b := 8192) (by norm_num) (fun k : Fin 131072 => term (P (ix2 k l)) (T (ix2 k l))),
    ← Fin.sum_univ_eq_sum_range (fun n => blockSum P T n l) 16]
  refine Finset.sum_congr rfl fun p _ => ?_
  unfold blockSum
  refine Finset.sum_congr rfl fun q _ => ?_
  have hk : p.val * 8192 + q.val < 131072 := by have := p.isLt; have := q.isLt; omega
  rw [rowAt_of_lt hk]

/-- The two cores' partial sums of lane `l` add to the sixteen blocks' column sums of that lane. -/
theorem partialSum_add (P T : Rows.Idx → EReal) (l : Fin 128) :
    partialSum P T 0 8 l + partialSum P T 1 8 l = ∑ n ∈ Finset.range 16, blockSum P T n l := by
  unfold partialSum
  rw [show (16 : ℕ) = 8 + 8 from rfl, Finset.sum_range_add]
  simp only [Nat.zero_mul, Nat.zero_add, Nat.one_mul]

/-- The kernel's two lane totals add to the total over the row–lane index set. -/
theorem lanes_add (P T : Rows.Idx → EReal) :
    (∑ l : Fin 128, partialSum P T 0 8 l) + (∑ l : Fin 128, partialSum P T 1 8 l)
      = ∑ j : Rows.Idx, term (P j) (T j) := by
  rw [← Finset.sum_add_distrib, sum_idx2 (fun j : Rows.Idx => term (P j) (T j)), Finset.sum_comm]
  refine Finset.sum_congr rfl fun l _ => ?_
  rw [partialSum_add, sum_blockSum]

/-! ## The reshape renames indices -/

/-- The total of the terms over the reshaped arrays is the total over the flat ones. -/
theorem sum_terms_shapeCast (P T : Flat.Idx → EReal) (h : Flat.ShapeCasts Rows) :
    ∑ j : Rows.Idx, term (shapeCast Rows P h j) (shapeCast Rows T h j) = ∑ i : Flat.Idx, term (P i) (T i) := by
  unfold shapeCast
  exact sum_reshape h (fun i : Flat.Idx => term (P i) (T i))

/-! ## The claim -/

/-- The kernel's result on the arrays viewed as rows is the reference's result on the flat arrays. -/
theorem kernelResult_eq (P T : Flat.Idx → EReal) (h : Flat.ShapeCasts Rows) :
    kernelResult (shapeCast Rows P h) (shapeCast Rows T h) = referenceResult P T := by
  unfold kernelResult referenceResult
  rw [zero_add, zero_add, zero_add, lanes_add, sum_terms_shapeCast, ofBits_two_pow_24, ofBits_two_pow_neg_24,
    Ideal.div_coe (by norm_num)]

end Cert.MeanWeightedSq

end
-- ==== Proof.lean ====
/-
  The kernel and its reference compute the same number over the extended reals.

  Both take predictions `p` and targets `t`, 16777216 numbers each, and return the mean of the weighted squared errors
  `(pₙ - tₙ)² · wₙ`, with `wₙ = 2` where `pₙ < 20` or `pₙ > 80` and `wₙ = 1` elsewhere. The reference adds all of them and
  divides by 2²⁴. The kernel views the arrays as 131072 rows of 128 lanes in 16 blocks of 8192 rows; each of its two
  cores adds, lane by lane, the column sums of its eight blocks into an accumulator row that starts from zero, and after
  its last block writes that row out; the host then adds the 128 lanes of each core's row, adds the two totals and
  multiplies by 2⁻²⁴. Every elementwise operation and every literal word is the same on the two sides, so the two
  results differ only in how one finite sum is grouped — and sums of extended reals may be regrouped and reordered
  freely — and in dividing by 2²⁴ against multiplying by 2⁻²⁴, which agree on every extended real. No finiteness of
  the inputs is needed for the equality.

  The parts: Proof/Spec.lean (the formula), Proof/Pieces.lean, Proof/Payloads.lean, Proof/Blocks.lean (what one grid
  point reads, computes and leaves), Proof/Accum.lean (the accumulator after each point, by induction),
  Proof/OutArray.lean (the kernel's result array), Proof/TailValue.lean and Proof/KernelRun.lean (the host operations
  after the region, and the kernel program's run), Proof/RefIsSpec.lean (the reference is the formula),
  Proof/Algebra.lean (regrouping the sum; the two scalings), over Proof/LibSumBlocks.lean (finite sums re-indexed: by blocks,
  over a rank-1 index set, through a reshape). The ideal pass rewrote nothing, so the kernel's
  idealization is the kernel's own text read over the extended reals.
-/
import proofs.«116129_j15668040696555_2_alg».proof.Defs
import proofs.«116129_j15668040696555_2_alg».proof.Proof.Gen.Kernel
import proofs.«116129_j15668040696555_2_alg».proof.Proof.Gen.Kernel.Frame
import proofs.«116129_j15668040696555_2_alg».proof.Proof.Gen.KernelIdeal
import proofs.«116129_j15668040696555_2_alg».proof.Proof.Gen.KernelIdeal.Frame
import proofs.«116129_j15668040696555_2_alg».proof.Proof.Gen.ReferenceIdeal
import proofs.«116129_j15668040696555_2_alg».proof.Proof.Gen.ReferenceIdeal.Run
import proofs.«116129_j15668040696555_2_alg».proof.Proof.Gen.Pre_finite_inputs
import proofs.«116129_j15668040696555_2_alg».proof.Proof.KernelRun
import proofs.«116129_j15668040696555_2_alg».proof.Proof.RefIsSpec
import proofs.«116129_j15668040696555_2_alg».proof.Proof.Algebra
import Idealize.ShloMosaic.Adequacy
import Idealize.ShloMosaic.Init

noncomputable section

namespace Cert.Proof

open Idealize.ShloMosaic Idealize.SL.Sem

/-- The kernel program runs to completion without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: nothing to preserve. -/
theorem preserves : Cert.preserves_Kernel_KernelIdeal := trivial

/-- From memories that agree on the two arguments both programs end with the same number: the kernel's run ends at the
    blockwise sum times 2⁻²⁴ of the arguments re-laid in rows, the reference's at the total divided by 2²⁴, and the two are
    equal by regrouping the sum. -/
theorem algebraic : Cert.algebraic_KernelIdeal_ReferenceIdeal := by
  intro m ρ m' ρ' _ hagree
  refine ⟨fun c => fun _ => Cert.MeanWeightedSq.kernelResult (Cert.KernelIdeal.Val.P2 m c) (Cert.KernelIdeal.Val.T2 m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.val_main_v10_eq_spec, (hagree c).1, (hagree c).2]
  funext i
  show Cert.MeanWeightedSq.referenceResult _ _
    = Cert.MeanWeightedSq.kernelResult (Cert.KernelIdeal.Gen.V m c Cert.KernelIdeal.main_v0) (Cert.KernelIdeal.Gen.V m c Cert.KernelIdeal.main_v1)
  rw [Cert.KernelIdeal.Val.V_main_v0 m c, Cert.KernelIdeal.Val.V_main_v1 m c]
  exact (Cert.MeanWeightedSq.kernelResult_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
